-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S448x128 : S_.BroadcastsInDim S448x128 (![] : Fin 0 → Fin S448x128.rank)
  reducesTo_S448x128_S_d0_1 : S448x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x64 .f32) (main_arg1 : IVec S200000x7 32) (main_arg2 : FVec F S448x128 .f32) (main_arg3 : FVec F S128 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S448x128 .f32 := Host.absf main_arg2
  let main_cst_0 : FVec F S_ .f32 := constant S_ .f32 0x7F800000#32
  let main_v5 : FVec F S448x128 .f32 := broadcastInDim S448x128 ![] bcast_S_S448x128 main_cst_0
  let main_v6 : IVec S448x128 1 := cmpf .olt main_v4 main_v5
  let main_c_1 : IVec S_ 1 := constantI S_ 1 1#1
  let main_v7 : IVec S_ 1 := (fun x v => Host.reduce IntOp.andi x v reducesTo_S448x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩
abbrev S200000x7x1 : Shape := ⟨3, ![200000, 7, 1]⟩
abbrev S200000x7x64 : Shape := ⟨3, ![200000, 7, 64]⟩
abbrev S200000x448 : Shape := ⟨2, ![200000, 448]⟩
abbrev S1x128 : Shape := ⟨2, ![1, 128]⟩
abbrev S200000x128 : Shape := ⟨2, ![200000, 128]⟩
abbrev S4000x448 : Shape := ⟨2, ![4000, 448]⟩
abbrev S4000x128 : Shape := ⟨2, ![4000, 128]⟩

abbrev nBuf : Space → Nat
  | .hbm => 17
  | .vmem => 6
  | .smem => 0
  | _ => 0

abbrev bufTy : (tb : Table) → Fin (tcTables nBuf tb) → BufTy
  | .hbm, ⟨0, _⟩ => ⟨S200000x64, .f32⟩
  | .hbm, ⟨1, _⟩ => ⟨S200000x7, .i32⟩
  | .hbm, ⟨2, _⟩ => ⟨S448x128, .f32⟩
  | .hbm, ⟨3, _⟩ => ⟨S128, .f32⟩
  | .hbm, ⟨4, _⟩ => ⟨S200000x64, .bf16⟩
  | .hbm, ⟨5, _⟩ => ⟨S_, .i32⟩
  | .hbm, ⟨6, _⟩ => ⟨S200000x7, .i32⟩
  | .hbm, ⟨7, _⟩ => ⟨S200000x7, .i1⟩
  | .hbm, ⟨8, _⟩ => ⟨S_, .i32⟩
  | .hbm, ⟨9, _⟩ => ⟨S200000x7, .i32⟩
  | .hbm, ⟨10, _⟩ => ⟨S200000x7, .i32⟩
  | .hbm, ⟨11, _⟩ => ⟨S200000x7, .i32⟩
  | .hbm, ⟨12, _⟩ => ⟨S200000x7x1, .i32⟩
  | .hbm, ⟨13, _⟩ => ⟨S200000x7x64, .bf16⟩
  | .hbm, ⟨14, _⟩ => ⟨S200000x448, .bf16⟩
  | .hbm, ⟨15, _⟩ => ⟨S1x128, .f32⟩
  | .hbm, ⟨16, _⟩ => ⟨S200000x128, .f32⟩
  | .local _ .vmem, ⟨0, _⟩ => ⟨S4000x448, .bf16⟩
  | .local _ .vmem, ⟨1, _⟩ => ⟨S4000x448, .bf16⟩
  | .local _ .vmem, ⟨2, _⟩ => ⟨S448x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S200000x7 : S_.BroadcastsInDim S200000x7 (![] : Fin 0 → Fin S200000x7.rank)
  bcast_S200000x7_S200000x7x1_0_1 : S200000x7.BroadcastsInDim S200000x7x1 (![0, 1] : Fin 2 → Fin S200000x7x1.rank)
  shapeCasts_S200000x7x64_S200000x448 : S200000x7x64.ShapeCasts S200000x448
  shapeCasts_S128_S1x128 : S128.ShapeCasts S1x128
  inb_S4000x448_S4000x448_0_0 : ∀ a, (![0, 0] : Fin 2 → Nat) a + S4000x448.size a ≤ S4000x448.size a
  h_S4000x448 : 0 < S4000x448.numel
  shapeCasts_S4000x448_S4000x448 : S4000x448.ShapeCasts S4000x448
  inb_S448x128_S448x128_0_0 : ∀ a, (![0, 0] : Fin 2 → Nat) a + S448x128.size a ≤ S448x128.size a
  h_S448x128 : 0 < S448x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S200000x64_S200000x7x1_S200000x7x64_2_0_n_n_0_2_164_wf : GatherDims.WF S200000x64 S200000x7x1 S200000x7x64 [2] [0] [] [0] [] 2 ![1, 64]
  dot_S4000x448_S448x128_S4000x128_1_0_0_1_n_n_wf : DotDims.WF S4000x448 S448x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x448.size a ≤ S200000x448.size a
  hwx0_0 : ∀ i : grid0.Coords, EltTy.bits .bf16 = 32 ∨ (Rect.block (s := S200000x448) S4000x448.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x128.size a ≤ S448x128.size a
  hwx0_1 : ∀ i : grid0.Coords, EltTy.bits .f32 = 32 ∨ (Rect.block (s := S448x128) S448x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)

variable [Facts₀]

def gather_S200000x64_S200000x7x1_S200000x7x64_2_0_n_n_0_2_164 : GatherDims S200000x64 S200000x7x1 S200000x7x64 where
  offsetDims := [2]
  collapsedSliceDims := [0]
  operandBatchingDims := []
  startIndicesBatchingDims := []
  startIndexMap := [0]
  indexVectorDim := 2
  sliceSizes := ![1, 64]
  wf := gather_S200000x64_S200000x7x1_S200000x7x64_2_0_n_n_0_2_164_wf
def dot_S4000x448_S448x128_S4000x128_1_0_0_1_n_n : DotDims S4000x448 S448x128 S4000x128 where
  lhsContracting := [1]
  rhsContracting := [0]
  lhsNonContracting := [0]
  rhsNonContracting := [1]
  lhsBatch := []
  rhsBatch := []
  wf := dot_S4000x448_S448x128_S4000x128_1_0_0_1_n_n_wf

abbrev win0_0 : Pipeline.Window sig grid0 :=
  Pipeline.Window.ofSpec (Memref.whole main_v8) S4000x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S448x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x64 : Shape := ⟨2, ![200000, 64]⟩
abbrev S200000x7 : Shape := ⟨2, ![200000, 7]⟩
abbrev S448x128 : Shape := ⟨2, ![448, 128]⟩
abbrev S128 : Shape := ⟨1, ![128]⟩
abbrev S_ : Shape := ⟨0, ![]⟩
abbrev S200000x7x1 : Shape := ⟨3, ![200000, 7, 1]⟩
abbrev S200000x7x64 : Shape := ⟨3, ![200000, 7, 64]⟩
abbrev S200000x448 : Shape := ⟨2, ![200000, 448]⟩
abbrev S200000x128 : Shape := ⟨2, ![200000, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S200000x7, .i32⟩
  | .hbm, ⟨2, _⟩ => ⟨S448x128, .f32⟩
  | .hbm, ⟨3, _⟩ => ⟨S128, .f32⟩
  | .hbm, ⟨4, _⟩ => ⟨S_, .i32⟩
  | .hbm, ⟨5, _⟩ => ⟨S200000x7, .i32⟩
  | .hbm, ⟨6, _⟩ => ⟨S200000x7, .i1⟩
  | .hbm, ⟨7, _⟩ => ⟨S_, .i32⟩
  | .hbm, ⟨8, _⟩ => ⟨S200000x7, .i32⟩
  | .hbm, ⟨9, _⟩ => ⟨S200000x7, .i32⟩
  | .hbm, ⟨10, _⟩ => ⟨S200000x7, .i32⟩
  | .hbm, ⟨11, _⟩ => ⟨S200000x7x1, .i32⟩
  | .hbm, ⟨12, _⟩ => ⟨S200000x7x64, .f32⟩
  | .hbm, ⟨13, _⟩ => ⟨S200000x448, .f32⟩
  | .hbm, ⟨14, _⟩ => ⟨S200000x128, .f32⟩
  | .hbm, ⟨15, _⟩ => ⟨S1x128, .f32⟩
  | .hbm, ⟨16, _⟩ => ⟨S200000x128, .f32⟩
  | .hbm, ⟨17, _⟩ => ⟨S200000x128, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S200000x7 : S_.BroadcastsInDim S200000x7 (![] : Fin 0 → Fin S200000x7.rank)
  bcast_S200000x7_S200000x7x1_0_1 : S200000x7.BroadcastsInDim S200000x7x1 (![0, 1] : Fin 2 → Fin S200000x7x1.rank)
  shapeCasts_S200000x7x64_S200000x448 : S200000x7x64.ShapeCasts S200000x448
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x64_S200000x7x1_S200000x7x64_2_0_n_n_0_2_164_wf : GatherDims.WF S200000x64 S200000x7x1 S200000x7x64 [2] [0] [] [0] [] 2 ![1, 64]
  dot_S200000x448_S448x128_S200000x128_1_0_0_1_n_n_wf : DotDims.WF S200000x448 S448x128 S200000x128 [1] [0] [0] [1] [] []

variable [Facts₀]

def gather_S200000x64_S200000x7x1_S200000x7x64_2_0_n_n_0_2_164 : GatherDims S200000x64 S200000x7x1 S200000x7x64 where
  offsetDims := [2]
  collapsedSliceDims := [0]
  operandBatchingDims := []
  startIndicesBatchingDims := []
  startIndexMap := [0]
  indexVectorDim := 2
  sliceSizes := ![1, 64]
  wf := gather_S200000x64_S200000x7x1_S200000x7x64_2_0_n_n_0_2_164_wf
def dot_S200000x448_S448x128_S200000x128_1_0_0_1_n_n : DotDims S200000x448 S448x128 S200000x128 where
  lhsContracting := [1]
  rhsContracting := [0]
  lhsNonContracting := [0]
  rhsNonContracting := [1]
  lhsBatch := []
  rhsBatch := []
  wf := dot_S200000x448_S448x128_S200000x128_1_0_0_1_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.KernelTile.lean ====
/-
  One tile of the kernel, read at an index. At a grid point the body loads a `4000 × 448` block of flattened features,
  the whole `448 × 128` weight matrix and the `1 × 128` bias row, multiplies the first two on the matrix unit into a zero
  accumulator and adds the bias row broadcast over the 4000 rows. Over the extended reals a change of float format is the
  identity, so entry `(p, q)` of the tile is `Σ_{k < 448} x0 (p, k) · x1 (k, q) + x2 (0, q)`.
-/
import proofs.«153144_j75557064672009_2_alg».proof.Proof.Gen.KernelIdeal.Skeleton
import proofs.«153144_j75557064672009_2_alg».proof.Proof.LibPlainDot
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The printed dimension numbers of the tile's product are those of a plain `4000 × 448` by `448 × 128` product. -/
theorem dot_plain : dot_S4000x448_S448x128_S4000x128_1_0_0_1_n_n = DotDims.plain 4000 448 128 := rfl

/-- Entry `(p, q)` of the tile the body stores: row `p` of the feature block against column `q` of the weights, plus the
    bias row's entry `q`. -/
theorem tile_apply (x0 : Vec Ideal S4000x448 .bf16) (x1 : Vec Ideal S448x128 .f32) (x2 : Vec Ideal S1x128 .f32)
    (p : Fin 4000) (q : Fin 128) :
    k0_pay1 (F := Ideal) x0 x1 x2 (ix2 p q)
      = (∑ k : Fin 448, x0 (ix2 p k) * x1 (ix2 k q)) + x2 (ix2 (0 : Fin 1) q) := by
  unfold k0_pay1
  rw [shapeCast_self, shapeCast_self, addf_apply, broadcastTo_1b_ab_apply, dot_plain]
  exact congrArg (· + x2 (ix2 (0 : Fin 1) q))
    (PlainDot.matmul_apply_ix2 none x0 (truncf .bf16 x1 bitsLt_bf16_f32) p q)

end Cert.KernelIdeal.Tile

end
-- ==== Proof.KernelHost.lean ====
/-
  What the kernel's region finds in the two arrays its host code prepares. Before the call the host code rounds the node
  features to the narrower float format (the identity over the extended reals), wraps negative neighbour indices once by
  the number of nodes, gathers the seven neighbour rows of every node and lays them side by side: the `200000 × 448`
  array of flattened features. It also views the bias vector as a single row. Both are read back here as pure terms of
  the argument arrays.
-/
import proofs.«153144_j75557064672009_2_alg».proof.Proof.Gen.KernelIdeal.Frame
import Idealize.ShloMosaic.Lib.StableHlo.Run
import Idealize.ShloMosaic.PureOps.Ideal.Laws
import Idealize.ShloMosaic.Lib.Pipeline.Value

noncomputable section

namespace Cert.KernelIdeal.HostSide

open Cert.KernelIdeal Cert.KernelIdeal.Gen Idealize.ShloMosaic Idealize.ShloMosaic.TcCoe Idealize.SL.Sem
  Idealize.ShloMosaic.StableHlo

/-- The flattened neighbour features as the kernel's host code computes them from the node features `X` and the
    neighbour indices `G`. -/
def flat (X : FVec Ideal S200000x64 .f32) (G : IVec S200000x7 32) : FVec Ideal S200000x448 .bf16 :=
  shapeCast S200000x448
    (Host.gather gather_S200000x64_S200000x7x1_S200000x7x64_2_0_n_n_0_2_164
      (truncf (F := Ideal) .bf16 X bitsLt_bf16_f32 : FVec Ideal S200000x64 .bf16)
      (broadcastInDim S200000x7x1 ![0, 1] bcast_S200000x7_S200000x7x1_0_1
        (select (cmpi .slt G (broadcastInDim S200000x7 ![] bcast_S_S200000x7 (constantI S_ 32 0#32)))
          (addi G (broadcastInDim S200000x7 ![] bcast_S_S200000x7 (constantI S_ 32 200000#32))) G)) :
      FVec Ideal S200000x7x64 .bf16)
    shapeCasts_S200000x7x64_S200000x448

variable (m : (ℓ : Loc nD τ sig) → Buf (Elt Ideal) ℓ)

/-- The region finds the flattened features of the launch contents of the first two arguments. -/
theorem V_flat (c : Dev nD) :
    (V m c main_v8 : S200000x448.Idx → EReal)
      = flat (m ((c : Thread nD τ).loc main_arg0)) (m ((c : Thread nD τ).loc main_arg1)) := by
  dsimp only [Gen.V, Gen.hostOps0]
  after_results
  rfl

/-- The region finds the bias vector viewed as one row. -/
theorem V_bias (c : Dev nD) :
    (V m c main_v9 : S1x128.Idx → EReal)
      = shapeCast S1x128 (m ((c : Thread nD τ).loc main_arg3)) shapeCasts_S128_S1x128 := by
  dsimp only [Gen.V, Gen.hostOps0]
  after_results
  rfl

end Cert.KernelIdeal.HostSide

end
-- ==== Proof.Projection.lean ====
/-
  The dense projection that both programs apply to the flattened neighbour features. For a node `r` and an output unit
  `u` the value is `Σ_{k < 448} flat (r, k) · W (k, u) + b u` over the extended reals, where `flat` is the
  `200000 × 448` array of gathered neighbour rows laid side by side (7 neighbours of 64 features each), `W` the
  `448 × 128` weight matrix and `b` the bias vector. No finiteness of the entries is needed anywhere below: the kernel
  and the reference are the same sum of the same products in the same order plus the same bias entry, so the two sides
  are joined by reading each at an index, and no law of the extended reals beyond reflexivity is used.
-/
import Idealize.ShloMosaic.PureOps.Ideal.Laws
import Idealize.ShloMosaic.Lib.ValueIdx

noncomputable section

namespace Cert.GraphConv

open Idealize.ShloMosaic Idealize.ShloMosaic.ValueIdx

/-- Row `r` of the flattened features against column `u` of the weights, plus the bias of unit `u`. -/
def project (flat : FVec Ideal ⟨2, ![200000, 448]⟩ .f32) (W : FVec Ideal ⟨2, ![448, 128]⟩ .f32)
    (b : FVec Ideal ⟨1, ![128]⟩ .f32) : FVec Ideal ⟨2, ![200000, 128]⟩ .f32 :=
  fun j => (∑ k : Fin 448, flat (ix2 ⟨(j 0).val, idx2_lt0 j⟩ k) * W (ix2 k ⟨(j 1).val, idx2_lt1 j⟩))
    + b (ix1 ⟨(j 1).val, idx2_lt1 j⟩)

/-- The projection at an index given by its two coordinates. -/
theorem project_apply (flat : FVec Ideal ⟨2, ![200000, 448]⟩ .f32) (W : FVec Ideal ⟨2, ![448, 128]⟩ .f32)
    (b : FVec Ideal ⟨1, ![128]⟩ .f32) (r : Fin 200000) (u : Fin 128) :
    project flat W b (ix2 r u) = (∑ k : Fin 448, flat (ix2 r k) * W (ix2 k u)) + b (ix1 u) := rfl

end Cert.GraphConv

end
-- ==== Proof.KernelArray.lean ====
/-
  The kernel's result array as one function of the argument arrays. The grid has 50 points; point `t` loads rows
  `4000 t … 4000 t + 3999` of the flattened features, the whole weight matrix and the bias row, and writes back rows
  `4000 t … 4000 t + 3999` of the result. The tile it writes (one entry: a row of the feature block against a column of
  the weights, plus the bias entry) is therefore the restriction of the whole-array projection to those rows, the 50
  row bands cover the `200000 × 128` result, and so the array ends holding the projection of the flattened features.
-/
import proofs.«153144_j75557064672009_2_alg».proof.Proof.Gen.KernelIdeal.Value
import proofs.«153144_j75557064672009_2_alg».proof.Proof.KernelTile
import proofs.«153144_j75557064672009_2_alg».proof.Proof.KernelHost
import proofs.«153144_j75557064672009_2_alg».proof.Proof.Projection
import Idealize.ShloMosaic.Lib.ValueLayout

noncomputable section

namespace Cert.KernelIdeal.Whole

open Cert.KernelIdeal Cert.KernelIdeal.Gen Idealize.ShloMosaic Idealize.ShloMosaic.TcCoe Idealize.SL.Sem
  Idealize.ShloMosaic.ValueIdx Cert.GraphConv
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- Where each window's block sits at grid point `t`: the feature block and the result block are row band `t`, the
    weights and the bias row are always the whole of their arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := lt_of_lt_of_eq t.isLt N_0

/-- The bias row the region finds, read as a vector. -/
def biasOfRow (v : S1x128.Idx → EReal) : FVec Ideal ⟨1, ![128]⟩ .f32 :=
  fun i => v (ix2 (0 : Fin 1) ⟨(i 0).val, (i 0).isLt⟩)

/-- What point `t` writes back is row band `t` of the projection of the arrays the region finds. -/
theorem flushed_eq (c : Dev nD) (t : Fin cfg0.N) :
    (dats m 0 c).flushed 3 t = ((cfg0.win 3).blk t).view.read (Elt Ideal)
      (project (V m c main_v8) (V m c main_arg2) (biasOfRow (V m c main_v9))) := by
  rw [Value.flushed3]
  unfold out0_3
  rw [View.canon_unit_zero zero_off]
  simp only [View.ld_unit_zero (S := S4000x448) zero_off, View.ld_unit_zero (S := S448x128) zero_off,
    View.ld_unit_zero (S := S1x128) zero_off]
  obtain ⟨e00, e01, e10, e11, e20, e21, e30, e31⟩ := block_indices t
  have ht := point_lt t
  funext y
  obtain ⟨p, q, rfl⟩ : ∃ (p : Fin 4000) (q : Fin 128), y = ix2 p q := ⟨y 0, y 1, eq_ix2 y⟩
  show k0_pay1 (iblk m c 0 t) (iblk m c 1 t) (iblk m c 2 t) (ix2 p q)
    = project (V m c main_v8) (V m c main_arg2) (biasOfRow (V m c main_v9)) (((cfg0.win 3).blk t).view.emb (ix2 p q))
  refine (Tile.tile_apply (iblk m c 0 t) (iblk m c 1 t) (iblk m c 2 t) p q).trans ?_
  have hemb : ((cfg0.win 3).blk t).view.emb (ix2 p q)
      = ix2 (⟨t.val * 4000 + p.val, by have := p.isLt; omega⟩ : Fin 200000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  rw [hemb, project_apply]
  have h0 : ∀ k : Fin 448, iblk m c 0 t (ix2 p k)
      = V m c main_v8 (ix2 (⟨t.val * 4000 + p.val, by have := p.isLt; omega⟩ : Fin 200000) k) := fun k => by
    show V m c main_v8 (((cfg0.win 0).blk t).view.emb (ix2 p k)) = _
    refine congrArg (V m c main_v8) (funext fun a => Fin.ext ?_)
    match a with
    | ⟨0, _⟩ => show win0_0.index t (0 : Fin 2) * 4000 + 1 * p.val = t.val * 4000 + p.val; omega
    | ⟨1, _⟩ => show win0_0.index t (1 : Fin 2) * 448 + 1 * k.val = k.val; omega
  have h1 : ∀ k : Fin 448, iblk m c 1 t (ix2 k q) = V m c main_arg2 (ix2 k q) := fun k => by
    show V m c main_arg2 (((cfg0.win 1).blk t).view.emb (ix2 k q)) = _
    refine congrArg (V m c main_arg2) (funext fun a => Fin.ext ?_)
    match a with
    | ⟨0, _⟩ => show win0_1.index t (0 : Fin 2) * 448 + 1 * k.val = k.val; omega
    | ⟨1, _⟩ => show win0_1.index t (1 : Fin 2) * 128 + 1 * q.val = q.val; omega
  have h2 : iblk m c 2 t (ix2 (0 : Fin 1) q) = biasOfRow (V m c main_v9) (ix1 q) := by
    show V m c main_v9 (((cfg0.win 2).blk t).view.emb (ix2 (0 : Fin 1) q)) = V m c main_v9 (ix2 (0 : Fin 1) q)
    refine congrArg (V m c main_v9) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  exact congrArg₂ (· + ·) (Finset.sum_congr rfl fun k _ => by rw [h0 k, h1 k]) h2

/-- An index of the result is in point `t`'s block iff each coordinate is in the block's range on its axis. -/
theorem mem_blk (t : Fin cfg0.N) (i : S200000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v10).slice (win0_3.rect t)).set ↔ _
  rw [View.set_slice_whole, Rect.mem_set_unit]
  exact Iff.rfl

/-- Row `r` of the result lies in the block of point `r / 4000`, which writes back. -/
theorem covered (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : (i 0).val / 4000 < cfg0.N := lt_of_lt_of_eq (by omega : (i 0).val / 4000 < 50) N_0.symm
  obtain ⟨-, -, -, -, -, -, e30, e31⟩ := block_indices ⟨(i 0).val / 4000, hN⟩
  have e30' : win0_3.index ⟨(i 0).val / 4000, hN⟩ (0 : Fin 2) = (i 0).val / 4000 := e30
  refine ⟨⟨(i 0).val / 4000, hN⟩, flush0_3 _, ?_⟩
  rw [mem_blk]
  intro a
  match a with
  | ⟨0, _⟩ =>
    show win0_3.index ⟨(i 0).val / 4000, hN⟩ (0 : Fin 2) * 4000 ≤ (i 0).val
      ∧ (i 0).val < win0_3.index ⟨(i 0).val / 4000, hN⟩ (0 : Fin 2) * 4000 + 4000
    omega
  | ⟨1, _⟩ =>
    show win0_3.index ⟨(i 0).val / 4000, hN⟩ (1 : Fin 2) * 128 ≤ (i 1).val
      ∧ (i 1).val < win0_3.index ⟨(i 0).val / 4000, hN⟩ (1 : Fin 2) * 128 + 128
    omega

/-- The bias row the region finds, read as a vector, is the bias argument. -/
theorem bias_row (c : Dev nD) : biasOfRow (V m c main_v9) = m ((c : Thread nD τ).loc main_arg3) := by
  funext i
  obtain ⟨u, rfl⟩ : ∃ u : Fin 128, i = ix1 u := ⟨i 0, eq_ix1 i⟩
  show V m c main_v9 (ix2 (0 : Fin 1) u) = _
  rw [HostSide.V_bias]
  exact shapeCast_a_1a_apply _ _ 0 u

/-- The result array after the run: the projection of the flattened features of the first two arguments by the weight
    and bias arguments. -/
theorem final (c : Dev nD) : (dats m 0 c).arrAt 3 cfg0.N
    = project (HostSide.flat (m ((c : Thread nD τ).loc main_arg0)) (m ((c : Thread nD τ).loc main_arg1)))
        (m ((c : Thread nD τ).loc main_arg2)) (m ((c : Thread nD τ).loc main_arg3)) := by
  refine ((dats m 0 c).arrAt_eq_of_cover 3
    (project (V m c main_v8) (V m c main_arg2) (biasOfRow (V m c main_v9)))
    (fun t _ => flushed_eq m c t) covered).trans ?_
  rw [HostSide.V_flat, V_main_arg2, bias_row]

/-- Every weakly fair execution of the kernel's program ends with the result array at that projection and the
    arguments unchanged. -/
theorem run : θ_run defs (onTc (τ := τ) (main (F := Ideal))) ⟨m, fun _ => 0, ρ⟩ fun r => ∀ c : Dev nD,
      r.2.mem ((c : Thread nD τ).loc main_v10)
        = project (HostSide.flat (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.ReferenceValue.lean ====
/-
  The reference's result read at an index. The reference gathers the neighbour rows of the node features, lays them side
  by side, multiplies by the weight matrix with the host's general product and adds the bias vector broadcast over the
  rows. Entry `(r, u)` of the product is `Σ_{k < 448} flat (r, k) · W (k, u)` and the broadcast bias there is `b u`: the
  result is the projection of the reference's own flattened features.
-/
import proofs.«153144_j75557064672009_2_alg».proof.Proof.Gen.ReferenceIdeal.Read
import proofs.«153144_j75557064672009_2_alg».proof.Proof.Projection

noncomputable section

namespace Cert.ReferenceIdeal.RefValue

open Cert.ReferenceIdeal Cert.ReferenceIdeal.Gen Cert.ReferenceIdeal.Read Idealize.ShloMosaic
  Idealize.ShloMosaic.ValueIdx Cert.GraphConv

/-- The product's left operand is read at the output's row and the contracted position. -/
theorem left_index (i : S200000x128.Idx) (k : Fin 448) : lidx_main_v8 i k = ix2 ⟨(i 0).val, idx2_lt0 i⟩ k :=
  funext fun a => Fin.ext (by match a with | ⟨0, _⟩ => rfl | ⟨1, _⟩ => rfl)

/-- Its right operand is read at the contracted position and the output's column. -/
theorem right_index (i : S200000x128.Idx) (k : Fin 448) : ridx_main_v8 i k = ix2 k ⟨(i 1).val, idx2_lt1 i⟩ :=
  funext fun a => Fin.ext (by match a with | ⟨0, _⟩ => rfl | ⟨1, _⟩ => rfl)

/-- The bias, broadcast first to one row and then over all rows, is read at the output's column. -/
theorem bias_index (i : S200000x128.Idx) : idx_main_v9 (idx_main_v10 i) = ix1 ⟨(i 1).val, idx2_lt1 i⟩ :=
  funext fun a => Fin.ext (by match a with | ⟨0, _⟩ => rfl)

/-- The reference's result is the projection of its flattened features by the weights and the bias. -/
theorem result_eq (x0 : (⟨S200000x64, .f32⟩ : BufTy).Contents (Elt Ideal)) (x1 : (⟨S200000x7, .i32⟩ : BufTy).Contents (Elt Ideal))
    (x2 : (⟨S448x128, .f32⟩ : BufTy).Contents (Elt Ideal)) (x3 : (⟨S128, .f32⟩ : BufTy).Contents (Elt Ideal)) :
    val_main_v11 (F := Ideal) x0 x1 x2 x3 = project (val_main_v7 (F := Ideal) x0 x1) x2 x3 := by
  funext i
  rw [val_main_v11_apply, val_main_v8_apply, val_main_v10_apply, val_main_v9_apply]
  simp only [left_index, right_index, bias_index, project]
  rfl

end Cert.ReferenceIdeal.RefValue

end
-- ==== Proof.SameFeatures.lean ====
/-
  The kernel's host code and the reference flatten the same gathered rows. Both wrap a negative neighbour index once by
  the number of nodes, gather the neighbour rows of the node features and lay the seven rows of each node side by side;
  the kernel first rounds the features to the narrower float format, which over the extended reals is the identity.
  The two terms are therefore one function of the node features and the neighbour indices.
-/
import proofs.«153144_j75557064672009_2_alg».proof.Proof.KernelHost
import proofs.«153144_j75557064672009_2_alg».proof.Proof.Gen.ReferenceIdeal.Read

noncomputable section

namespace Cert.SameFeatures

open Idealize.ShloMosaic

/-- The flattened features of the kernel's host code are the reference's. -/
theorem flat_eq (X : FVec Ideal Cert.KernelIdeal.S200000x64 .f32) (G : IVec Cert.KernelIdeal.S200000x7 32) :
    Cert.KernelIdeal.HostSide.flat X G = Cert.ReferenceIdeal.Read.val_main_v7 (F := Ideal) X G := rfl

end Cert.SameFeatures

end
-- ==== Proof.lean ====
/-
  The kernel gathers, for each of 200000 nodes, the feature rows of its 7 neighbours, lays them side by side into a
  `200000 × 448` array and projects it: a matrix product with the `448 × 128` weights on the matrix unit, 4000 rows per
  grid point, plus the bias row. The reference does the same with the host's general product over the whole array.
  Over the extended reals both results are, at node `r` and unit `u`, `Σ_{k < 448} flat (r, k) · W (k, u) + b u` of the
  same flattened features `flat` — the same products summed in the same order — so the two programs agree entry by
  entry with no appeal to finiteness of the inputs. The idealized kernel is the kernel's own text read over the extended
  reals (no operation was rewritten), so the idealization claim has nothing to state.
-/
import proofs.«153144_j75557064672009_2_alg».proof.Defs
import proofs.«153144_j75557064672009_2_alg».proof.Proof.Gen.Kernel
import proofs.«153144_j75557064672009_2_alg».proof.Proof.Gen.Kernel.Skeleton
import proofs.«153144_j75557064672009_2_alg».proof.Proof.Gen.Kernel.Launch
import proofs.«153144_j75557064672009_2_alg».proof.Proof.Gen.Kernel.Points
import proofs.«153144_j75557064672009_2_alg».proof.Proof.Gen.Kernel.Frame
import proofs.«153144_j75557064672009_2_alg».proof.Proof.Gen.KernelIdeal
import proofs.«153144_j75557064672009_2_alg».proof.Proof.Gen.KernelIdeal.Skeleton
import proofs.«153144_j75557064672009_2_alg».proof.Proof.Gen.KernelIdeal.Launch
import proofs.«153144_j75557064672009_2_alg».proof.Proof.Gen.KernelIdeal.Points
import proofs.«153144_j75557064672009_2_alg».proof.Proof.Gen.KernelIdeal.Frame
import proofs.«153144_j75557064672009_2_alg».proof.Proof.Gen.ReferenceIdeal
import proofs.«153144_j75557064672009_2_alg».proof.Proof.Gen.Pre_finite_inputs
import proofs.«153144_j75557064672009_2_alg».proof.Proof.Gen.KernelIdeal.Value
import proofs.«153144_j75557064672009_2_alg».proof.Proof.Gen.ReferenceIdeal.Run
import proofs.«153144_j75557064672009_2_alg».proof.Proof.Gen.ReferenceIdeal.Read
import Idealize.ShloMosaic.Adequacy
import Idealize.ShloMosaic.Init
import proofs.«153144_j75557064672009_2_alg».proof.Proof.KernelArray
import proofs.«153144_j75557064672009_2_alg».proof.Proof.ReferenceValue
import proofs.«153144_j75557064672009_2_alg».proof.Proof.SameFeatures

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments, the kernel's result array ends at the projection of the flattened
    features, and the reference's result is the projection of the same flattened features. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2.1, (hagree c).2.2.2, ← Cert.SameFeatures.flat_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
